-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S2x3200000 : Shape := ⟨2, ![2, 3200000]⟩
abbrev S16x5 : Shape := ⟨2, ![16, 5]⟩
abbrev S16 : Shape := ⟨1, ![16]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S16x5 : S_.BroadcastsInDim S16x5 (![] : Fin 0 → Fin S16x5.rank)
  reducesTo_S16x5_S_d0_1 : S16x5.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S100000x5 .f32) (main_arg1 : IVec S2x3200000 32) (main_arg2 : FVec F S16x5 .f32) (main_arg3 : FVec F S16 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S16x5 .f32 := Host.absf main_arg2
  let main_cst_0 : FVec F S_ .f32 := constant S_ .f32 0x7F800000#32
  let main_v5 : FVec F S16x5 .f32 := broadcastInDim S16x5 ![] bcast_S_S16x5 main_cst_0
  let main_v6 : IVec S16x5 1 := cmpf .olt main_v4 main_v5
  let main_c_1 : IVec S_ 1 := constantI S_ 1 1#1
  let main_v7 : IVec S_ 1 := (fun x v => Host.reduce IntOp.andi x v reducesTo_S16x5_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S100000x5 : Shape := ⟨2, ![100000, 5]⟩
abbrev S2x3200000 : Shape := ⟨2, ![2, 3200000]⟩
abbrev S16x5 : Shape := ⟨2, ![16, 5]⟩
abbrev S16 : Shape := ⟨1, ![16]⟩
abbrev S100000x16 : Shape := ⟨2, ![100000, 16]⟩
abbrev S5000x5 : Shape := ⟨2, ![5000, 5]⟩
abbrev S5000x16 : Shape := ⟨2, ![5000, 16]⟩
abbrev S1x16 : Shape := ⟨2, ![1, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S3300000x17 : Shape := ⟨2, ![3300000, 17]⟩
abbrev S3301376x17 : Shape := ⟨2, ![3301376, 17]⟩
abbrev S3301376x16 : Shape := ⟨2, ![3301376, 16]⟩
abbrev S8192x17 : Shape := ⟨2, ![8192, 17]⟩
abbrev S8192x16 : Shape := ⟨2, ![8192, 16]⟩
abbrev S8192x1 : Shape := ⟨2, ![8192, 1]⟩

abbrev nBuf : Space → Nat
  | .hbm => 63
  | .vmem => 10
  | .smem => 0
  | _ => 0

abbrev bufTy : (tb : Table) → Fin (tcTables nBuf tb) → BufTy
  | .hbm, ⟨0, _⟩ => ⟨S100000x5, .f32⟩
  | .hbm, ⟨1, _⟩ => ⟨S2x3200000, .i32⟩
  | .hbm, ⟨2, _⟩ => ⟨S16x5, .f32⟩
  | .hbm, ⟨3, _⟩ => ⟨S16, .f32⟩
  | .hbm, ⟨4, _⟩ => ⟨S100000x16, .f32⟩
  | .hbm, ⟨5, _⟩ => ⟨S100000, .i32⟩
  | .hbm, ⟨6, _⟩ => ⟨S1x3200000, .i32⟩
  | .hbm, ⟨7, _⟩ => ⟨S3200000, .i32⟩
  | .hbm, ⟨8, _⟩ => ⟨S3300000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S_, .f32⟩
  | .hbm, ⟨13, _⟩ => ⟨S3300000, .f32⟩
  | .hbm, ⟨14, _⟩ => ⟨S_, .f32⟩
  | .hbm, ⟨15, _⟩ => ⟨S100000, .f32⟩
  | .hbm, ⟨16, _⟩ => ⟨S3300000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S3300000, .i32⟩
  | .hbm, ⟨23, _⟩ => ⟨S3300000, .i1⟩
  | .hbm, ⟨24, _⟩ => ⟨S_, .i32⟩
  | .hbm, ⟨25, _⟩ => ⟨S3300000, .i32⟩
  | .hbm, ⟨26, _⟩ => ⟨S3300000, .i32⟩
  | .hbm, ⟨27, _⟩ => ⟨S3300000, .i32⟩
  | .hbm, ⟨28, _⟩ => ⟨S3300000x1, .i32⟩
  | .hbm, ⟨29, _⟩ => ⟨S3300000x16, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S3300000x1, .f32⟩
  | .hbm, ⟨50, _⟩ => ⟨S3300000x17, .f32⟩
  | .hbm, ⟨51, _⟩ => ⟨S_, .i32⟩
  | .hbm, ⟨52, _⟩ => ⟨S_, .f32⟩
  | .hbm, ⟨53, _⟩ => ⟨S3301376x17, .f32⟩
  | .hbm, ⟨54, _⟩ => ⟨S3301376x16, .f32⟩
  | .hbm, ⟨55, _⟩ => ⟨S3300000x16, .f32⟩
  | .hbm, ⟨56, _⟩ => ⟨S_, .f32⟩
  | .hbm, ⟨57, _⟩ => ⟨S100000x16, .f32⟩
  | .hbm, ⟨58, _⟩ => ⟨S3300000x1, .i32⟩
  | .hbm, ⟨59, _⟩ => ⟨S100000x16, .f32⟩
  | .hbm, ⟨60, _⟩ => ⟨S_, .f32⟩
  | .hbm, ⟨61, _⟩ => ⟨S100000x16, .f32⟩
  | .hbm, ⟨62, _⟩ => ⟨S100000x16, .f32⟩
  | .local _ .vmem, ⟨0, _⟩ => ⟨S5000x5, .f32⟩
  | .local _ .vmem, ⟨1, _⟩ => ⟨S5000x5, .f32⟩
  | .local _ .vmem, ⟨2, _⟩ => ⟨S16x5, .f32⟩
  | .local _ .vmem, ⟨3, _⟩ => ⟨S16, .f32⟩
  | .local _ .vmem, ⟨4, _⟩ => ⟨S5000x16, .f32⟩
  | .local _ .vmem, ⟨5, _⟩ => ⟨S5000x16, .f32⟩
  | .local _ .vmem, ⟨6, _⟩ => ⟨S8192x17, .f32⟩
  | .local _ .vmem, ⟨7, _⟩ => ⟨S8192x17, .f32⟩
  | .local _ .vmem, ⟨8, _⟩ => ⟨S8192x16, .f32⟩
  | .local _ .vmem, ⟨9, _⟩ => ⟨S8192x16, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_c_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_7 : Ref sig .tc := ⟨.hbm, 51, rfl⟩
abbrev main_call0_v0 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call1_cst : Ref sig .tc := ⟨.hbm, 60, rfl⟩
abbrev main_call1_v0 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![403], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x17 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S5000x5_S5000x5_0_0 : ∀ a, (![0, 0] : Fin 2 → Nat) a + S5000x5.size a ≤ S5000x5.size a
  h_S5000x5 : 0 < S5000x5.numel
  bitsLt_bf16_f32 : FTy.bits .bf16 < FTy.bits .f32
  inb_S16x5_S16x5_0_0 : ∀ a, (![0, 0] : Fin 2 → Nat) a + S16x5.size a ≤ S16x5.size a
  h_S16x5 : 0 < S16x5.numel
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  concatenates_S3300000x16_S3300000x1_S3300000x17_d1 : Shape.Concatenates [S3300000x16, S3300000x1] S3300000x17 1
  pads_S3300000x17_S3301376x17_013760_000 : S3300000x17.Pads (![0, 0] : Fin 2 → Nat) ![1376, 0] ![0, 0] S3301376x17
  h_S_ : 0 < S_.numel
  inb_S8192x17_S8192x17_0_0 : ∀ a, (![0, 0] : Fin 2 → Nat) a + S8192x17.size a ≤ S8192x17.size a
  h_S8192x17 : 0 < S8192x17.numel
  shapeCasts_S8192x17_S8192x17 : S8192x17.ShapeCasts S8192x17
  slices_S8192x17_o0_0_S8192x16 : S8192x17.Slices ![0, 0] S8192x16
  slices_S8192x17_o0_16_S8192x1 : S8192x17.Slices ![0, 16] S8192x1
  broadcasts_S8192x1_S8192x16 : S8192x1.Broadcasts S8192x16
  inb_S8192x16_S8192x16_0_0 : ∀ a, (![0, 0] : Fin 2 → Nat) a + S8192x16.size a ≤ S8192x16.size a
  h_S8192x16 : 0 < S8192x16.numel
  slices_S3301376x16_S3300000x16_0_0 : S3301376x16.Slices ![0, 0] S3300000x16
  bcast_S_S100000x16 : S_.BroadcastsInDim S100000x16 (![] : Fin 0 → Fin S100000x16.rank)
  dot_S5000x5_S16x5_S5000x16_1_1_0_0_n_n_wf : DotDims.WF S5000x5 S16x5 S5000x16 [1] [1] [0] [0] [] []
  scatter_S100000_S3300000x1_S3300000_n_0_0_1_wf : ScatterDims.WF S100000 S3300000x1 S3300000 [] [0] [0] 1
  gather_S100000x16_S3300000x1_S3300000x16_1_0_n_n_0_1_116_wf : GatherDims.WF S100000x16 S3300000x1 S3300000x16 [1] [0] [] [0] [] 1 ![1, 16]
  gather_S100000_S3300000x1_S3300000_n_0_n_n_0_1_1_wf : GatherDims.WF S100000 S3300000x1 S3300000 [] [0] [] [0] [] 1 ![1]
  scatter_S100000x16_S3300000x1_S3300000x16_1_0_0_1_wf : ScatterDims.WF S100000x16 S3300000x1 S3300000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S100000x5.size a
  hwx0_0 : ∀ i : grid0.Coords, EltTy.bits .f32 = 32 ∨ (Rect.block (s := S100000x5) S5000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x5.size a ≤ S16x5.size a
  hwx0_1 : ∀ i : grid0.Coords, EltTy.bits .f32 = 32 ∨ (Rect.block (s := S16x5) S16x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x17.size a ≤ S3301376x17.size a
  hwx1_0 : ∀ i : grid1.Coords, EltTy.bits .f32 = 32 ∨ (Rect.block (s := S3301376x17) S8192x17.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x16.size a ≤ S3301376x16.size a
  hwx1_1 : ∀ i : grid1.Coords, EltTy.bits .f32 = 32 ∨ (Rect.block (s := S3301376x16) S8192x16.size (cc1_transform_1 i) (hinb1_1 i)).WholeWords (EltTy.packing .f32)

variable [Facts₀]

def dot_S5000x5_S16x5_S5000x16_1_1_0_0_n_n : DotDims S5000x5 S16x5 S5000x16 where
  lhsContracting := [1]
  rhsContracting := [1]
  lhsNonContracting := [0]
  rhsNonContracting := [0]
  lhsBatch := []
  rhsBatch := []
  wf := dot_S5000x5_S16x5_S5000x16_1_1_0_0_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

abbrev win0_0 : Pipeline.Window sig grid0 :=
  Pipeline.Window.ofSpec (Memref.whole main_arg0) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v38) S8192x17.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S8192x16.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x5 : Shape := ⟨2, ![100000, 5]⟩
abbrev S2x3200000 : Shape := ⟨2, ![2, 3200000]⟩
abbrev S16x5 : Shape := ⟨2, ![16, 5]⟩
abbrev S16 : Shape := ⟨1, ![16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S5x16 : Shape := ⟨2, ![5, 16]⟩
abbrev S100000x16 : Shape := ⟨2, ![100000, 16]⟩
abbrev S1x16 : Shape := ⟨2, ![1, 16]⟩
abbrev S_ : Shape := ⟨0, ![]⟩
abbrev S3300000x1 : Shape := ⟨2, ![3300000, 1]⟩
abbrev S3300000x16 : Shape := ⟨2, ![3300000, 16]⟩

abbrev nBuf : Space → Nat
  | .hbm => 63
  | .vmem => 0
  | .smem => 0
  | _ => 0

abbrev bufTy : (tb : Table) → Fin (tcTables nBuf tb) → BufTy
  | .hbm, ⟨0, _⟩ => ⟨S100000x5, .f32⟩
  | .hbm, ⟨1, _⟩ => ⟨S2x3200000, .i32⟩
  | .hbm, ⟨2, _⟩ => ⟨S16x5, .f32⟩
  | .hbm, ⟨3, _⟩ => ⟨S16, .f32⟩
  | .hbm, ⟨4, _⟩ => ⟨S100000, .i32⟩
  | .hbm, ⟨5, _⟩ => ⟨S1x3200000, .i32⟩
  | .hbm, ⟨6, _⟩ => ⟨S3200000, .i32⟩
  | .hbm, ⟨7, _⟩ => ⟨S3300000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S5x16, .f32⟩
  | .hbm, ⟨12, _⟩ => ⟨S100000x16, .f32⟩
  | .hbm, ⟨13, _⟩ => ⟨S1x16, .f32⟩
  | .hbm, ⟨14, _⟩ => ⟨S100000x16, .f32⟩
  | .hbm, ⟨15, _⟩ => ⟨S100000x16, .f32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S3300000, .i32⟩
  | .hbm, ⟨27, _⟩ => ⟨S3300000, .i1⟩
  | .hbm, ⟨28, _⟩ => ⟨S_, .i32⟩
  | .hbm, ⟨29, _⟩ => ⟨S3300000, .i32⟩
  | .hbm, ⟨30, _⟩ => ⟨S3300000, .i32⟩
  | .hbm, ⟨31, _⟩ => ⟨S3300000, .i32⟩
  | .hbm, ⟨32, _⟩ => ⟨S3300000x1, .i32⟩
  | .hbm, ⟨33, _⟩ => ⟨S3300000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S3300000, .f32⟩
  | .hbm, ⟨44, _⟩ => ⟨S3300000x1, .f32⟩
  | .hbm, ⟨45, _⟩ => ⟨S_, .i32⟩
  | .hbm, ⟨46, _⟩ => ⟨S3300000, .i32⟩
  | .hbm, ⟨47, _⟩ => ⟨S3300000, .i1⟩
  | .hbm, ⟨48, _⟩ => ⟨S_, .i32⟩
  | .hbm, ⟨49, _⟩ => ⟨S3300000, .i32⟩
  | .hbm, ⟨50, _⟩ => ⟨S3300000, .i32⟩
  | .hbm, ⟨51, _⟩ => ⟨S3300000, .i32⟩
  | .hbm, ⟨52, _⟩ => ⟨S3300000x1, .i32⟩
  | .hbm, ⟨53, _⟩ => ⟨S3300000x16, .f32⟩
  | .hbm, ⟨54, _⟩ => ⟨S3300000x16, .f32⟩
  | .hbm, ⟨55, _⟩ => ⟨S3300000x16, .f32⟩
  | .hbm, ⟨56, _⟩ => ⟨S_, .f32⟩
  | .hbm, ⟨57, _⟩ => ⟨S100000x16, .f32⟩
  | .hbm, ⟨58, _⟩ => ⟨S3300000x1, .i32⟩
  | .hbm, ⟨59, _⟩ => ⟨S100000x16, .f32⟩
  | .hbm, ⟨60, _⟩ => ⟨S_, .f32⟩
  | .hbm, ⟨61, _⟩ => ⟨S100000x16, .f32⟩
  | .hbm, ⟨62, _⟩ => ⟨S100000x16, .f32⟩
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_3 : Ref sig .tc := ⟨.hbm, 34, rfl⟩
abbrev main_v25 : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_5 : Ref sig .tc := ⟨.hbm, 45, rfl⟩
abbrev main_v34 : Ref sig .tc := ⟨.hbm, 46, rfl⟩
abbrev main_v35 : Ref sig .tc := ⟨.hbm, 47, rfl⟩
abbrev main_c_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_call0_cst : Ref sig .tc := ⟨.hbm, 60, rfl⟩
abbrev main_call0_v0 : Ref sig .tc := ⟨.hbm, 61, rfl⟩
abbrev main_v46 : Ref sig .tc := ⟨.hbm, 62, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  transposes_S16x5_S5x16_1_0 : S16x5.Transposes [1, 0] S5x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  dot_S100000x5_S5x16_S100000x16_1_0_0_1_n_n_wf : DotDims.WF S100000x5 S5x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1

variable [Facts₀]

def dot_S100000x5_S5x16_S100000x16_1_0_0_1_n_n : DotDims S100000x5 S5x16 S100000x16 where
  lhsContracting := [1]
  rhsContracting := [0]
  lhsNonContracting := [0]
  rhsNonContracting := [1]
  lhsBatch := []
  rhsBatch := []
  wf := dot_S100000x5_S5x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

class Facts : Prop extends Facts₀ where

variable [Facts]
-- ==== Proof.KernelRun.lean ====
/-
  The idealized kernel's run, with the result array named.

  The program is two tiled calls among stretches of host operations. Its run ends with every buffer the program
  names (none of them is scoped to a call) holding the contents reached by folding the segments over the launch
  memory: the first call's write-backs, the host operations up to the second call, the second call's write-backs,
  the host operations after it. Read at the result buffer this fold is the result array; read at an argument it
  is the argument as launched, since no segment writes an argument.
-/
import proofs.«166133_j17532056502701_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the fold of
    the program's segments read at the result buffer, and the four arguments end as launched. -/
theorem run : θ_run defs (onTc (τ := τ) (main (F := F))) ⟨m, fun _ => 0, ρ⟩ (fun r => ∀ c : Dev nD,
      r.2.mem ((c.tc : Thread nD τ).loc main_v44) = W6 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v44 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.RunValue

end
-- ==== Proof.LibProductAtT.lean ====
/-
  A matrix product whose right factor is used transposed, read at an index.

  Dimension numbers of a product [A, K] × [B, K] → [A, B] that contract axis 1 of BOTH factors, with no batch axis, index
  the two factors at the result index (p, q) and the contraction index k by (p, k) and (q, k). So any sum over the
  contraction index — a tile product into an accumulator, a host dot_general — is the sum over k < K of
  l (p, k) · r (q, k): it reads row p of the left factor and ROW q of the right one (x · Wᵀ with W stored [out, in]).
  General: nothing here depends on a particular program. An instance supplies the two kept coordinates (hl0, hr0: each
  is "unfold DotDims.lhsIdx; rw [dif_neg …, dif_pos …]; rfl" for literal dimension numbers) and rfl four times.
-/
import Idealize.ShloMosaic.Lib.ValueIdx
import Idealize.ShloMosaic.PureOps.Ideal.Laws

noncomputable section

namespace Cert.LibProductAtT

open Idealize.ShloMosaic Idealize.ShloMosaic.ValueIdx

/-- THE SUM, RE-INDEXED. Dimension numbers that contract axis 1 of both factors and keep axis 0 of the left factor as
    the result's rows and axis 0 of the right factor as its columns (hl0, hr0): the sum over the contraction index is
    the sum over k < K of l (p, k) · r (q, k) at the result index (p, q). -/
theorem product_sum_eq {A B K : Nat} {φ₁ φ₂ : FTy}
    (d : DotDims (⟨2, ![A, K]⟩ : Shape) (⟨2, ![B, K]⟩ : Shape) (⟨2, ![A, B]⟩ : Shape))
    (hr : d.contr.rank = 1) (hs : d.contr.size ⟨0, by omega⟩ = K)
    (hlc : d.lhsContracting = [(1 : Fin 2)]) (hrc : d.rhsContracting = [(1 : Fin 2)])
    (hl0 : ∀ (j : (⟨2, ![A, B]⟩ : Shape).Idx) (c : d.contr.Idx), (d.lhsIdx j c 0).val = (j 0).val)
    (hr0 : ∀ (j : (⟨2, ![A, B]⟩ : Shape).Idx) (c : d.contr.Idx), (d.rhsIdx j c 0).val = (j 1).val)
    (l : FVec Ideal (⟨2, ![A, K]⟩ : Shape) φ₁) (r : FVec Ideal (⟨2, ![B, K]⟩ : Shape) φ₂) (p : Fin A) (q : Fin B) :
    ∑ c : d.contr.Idx, l (d.lhsIdx (ix2 p q) c) * r (d.rhsIdx (ix2 p q) c) = ∑ k : Fin K, l (ix2 p k) * r (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k :=
    funext fun a => Fin.ext (by
      match a with
      | ⟨0, _⟩ => exact hl0 _ _
      | ⟨1, _⟩ => exact (d.lhsIdx_val_of_single hlc _ _).trans hk)
  have er : d.rhsIdx (ix2 p q) ((contrEquiv1 d K hr hs).symm k) = ix2 q k :=
    funext fun a => Fin.ext (by
      match a with
      | ⟨0, _⟩ => exact hr0 _ _
      | ⟨1, _⟩ => exact (d.rhsIdx_val_of_single hrc _ _).trans hk)
  rw [el, er]

/-- A tile product into an accumulator, at (p, q): acc (p, q) + Σ_k l (p, k) · r (q, k). -/
theorem matmul_apply {A B K : Nat} {φ₁ φ₂ : FTy}
    (d : DotDims (⟨2, ![A, K]⟩ : Shape) (⟨2, ![B, K]⟩ : Shape) (⟨2, ![A, B]⟩ : Shape)) (prec : Option ContractPrecision)
    (hr : d.contr.rank = 1) (hs : d.contr.size ⟨0, by omega⟩ = K)
    (hlc : d.lhsContracting = [(1 : Fin 2)]) (hrc : d.rhsContracting = [(1 : Fin 2)])
    (hl0 : ∀ (j : (⟨2, ![A, B]⟩ : Shape).Idx) (c : d.contr.Idx), (d.lhsIdx j c 0).val = (j 0).val)
    (hr0 : ∀ (j : (⟨2, ![A, B]⟩ : Shape).Idx) (c : d.contr.Idx), (d.rhsIdx j c 0).val = (j 1).val)
    (l : FVec Ideal (⟨2, ![A, K]⟩ : Shape) φ₁) (r : FVec Ideal (⟨2, ![B, K]⟩ : Shape) φ₂)
    (acc : FVec Ideal (⟨2, ![A, B]⟩ : Shape) .f32) (p : Fin A) (q : Fin B) :
    FloatOps.matmul d prec l r acc (ix2 p q) = acc (ix2 p q) + ∑ k : Fin K, l (ix2 p k) * r (ix2 q k) := by
  rw [Ideal.matmul_apply, product_sum_eq d hr hs hlc hrc hl0 hr0]

/-- A tile product into the zero accumulator, at (p, q): Σ_k l (p, k) · r (q, k). -/
theorem matmul_zero_apply {A B K : Nat} {φ₁ φ₂ : FTy}
    (d : DotDims (⟨2, ![A, K]⟩ : Shape) (⟨2, ![B, K]⟩ : Shape) (⟨2, ![A, B]⟩ : Shape)) (prec : Option ContractPrecision)
    (hr : d.contr.rank = 1) (hs : d.contr.size ⟨0, by omega⟩ = K)
    (hlc : d.lhsContracting = [(1 : Fin 2)]) (hrc : d.rhsContracting = [(1 : Fin 2)])
    (hl0 : ∀ (j : (⟨2, ![A, B]⟩ : Shape).Idx) (c : d.contr.Idx), (d.lhsIdx j c 0).val = (j 0).val)
    (hr0 : ∀ (j : (⟨2, ![A, B]⟩ : Shape).Idx) (c : d.contr.Idx), (d.rhsIdx j c 0).val = (j 1).val)
    (l : FVec Ideal (⟨2, ![A, K]⟩ : Shape) φ₁) (r : FVec Ideal (⟨2, ![B, K]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 q k) := by
  rw [Ideal.matmul_constant_zero_apply, product_sum_eq d hr hs hlc hrc hl0 hr0]

/-- A host dot_general with these dimension numbers, at (p, q): Σ_k l (p, k) · r (q, k). -/
theorem dotGeneral_apply {A B K : Nat} {φ₁ φ₂ : FTy}
    (d : DotDims (⟨2, ![A, K]⟩ : Shape) (⟨2, ![B, K]⟩ : Shape) (⟨2, ![A, B]⟩ : Shape)) (prec : Option ContractPrecision)
    (sched : HostSchedule)
    (hr : d.contr.rank = 1) (hs : d.contr.size ⟨0, by omega⟩ = K)
    (hlc : d.lhsContracting = [(1 : Fin 2)]) (hrc : d.rhsContracting = [(1 : Fin 2)])
    (hl0 : ∀ (j : (⟨2, ![A, B]⟩ : Shape).Idx) (c : d.contr.Idx), (d.lhsIdx j c 0).val = (j 0).val)
    (hr0 : ∀ (j : (⟨2, ![A, B]⟩ : Shape).Idx) (c : d.contr.Idx), (d.rhsIdx j c 0).val = (j 1).val)
    (l : FVec Ideal (⟨2, ![A, K]⟩ : Shape) φ₁) (r : FVec Ideal (⟨2, ![B, K]⟩ : Shape) φ₂) (p : Fin A) (q : Fin B) :
    FloatOps.dotGeneral d prec sched l r (ix2 p q) = ∑ k : Fin K, l (ix2 p k) * r (ix2 q k) := by
  rw [Ideal.dotGeneral_apply, product_sum_eq d hr hs hlc hrc hl0 hr0]

end Cert.LibProductAtT

end
-- ==== Proof.LibLayout.lean ====
/-
  A keepdims column read at an index. An array with one column, broadcast along its unit axis to `b` columns,
  holds at `(p, c)` the operand's entry in row `p`: every column is a copy of the one column.
-/
import Idealize.ShloMosaic.Lib.Pipeline.Value
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payloads.lean ====
/-
  What the two tile bodies store, read at an entry.

  The first body multiplies a tile of 5000 rows of the node features by the transposed weight matrix and adds the
  bias: its stored value at (p, q) is the sum over k < 5 of x(p, k) · w(q, k), plus b(q). Rounding the factors to
  a shorter float format is the identity on extended reals, and the product accumulates into the zero tile.
  The second body multiplies the first sixteen entries of every row of a 17-column tile by the row's last entry:
  its stored value at (p, q) is t(p, q) · t(p, 16).
-/
import proofs.«166133_j17532056502701_2_alg».proof.Proof.Gen.KernelIdeal.Skeleton
import proofs.«166133_j17532056502701_2_alg».proof.Proof.LibProductAtT
import proofs.«166133_j17532056502701_2_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payloads

open Cert.KernelIdeal Cert.KernelIdeal.Gen Idealize.ShloMosaic Idealize.ShloMosaic.ValueIdx

/-- Column q < 16 of a 17-column row. -/
abbrev col17 (q : Fin 16) : Fin 17 := ⟨q.val, by omega⟩
/-- The last column of a 17-column row. -/
abbrev last17 : Fin 17 := ⟨16, by omega⟩

private theorem hl0 (j : S5000x16.Idx) (c : dot_S5000x5_S16x5_S5000x16_1_1_0_0_n_n.contr.Idx) :
    (dot_S5000x5_S16x5_S5000x16_1_1_0_0_n_n.lhsIdx j c 0).val = (j 0).val := by
  unfold DotDims.lhsIdx
  rw [dif_neg (show ¬(0 : Fin S5000x5.rank) ∈ dot_S5000x5_S16x5_S5000x16_1_1_0_0_n_n.lhsBatch by decide),
    dif_pos (show (0 : Fin S5000x5.rank) ∈ dot_S5000x5_S16x5_S5000x16_1_1_0_0_n_n.lhsNonContracting by decide)]
  rfl

private theorem hr0 (j : S5000x16.Idx) (c : dot_S5000x5_S16x5_S5000x16_1_1_0_0_n_n.contr.Idx) :
    (dot_S5000x5_S16x5_S5000x16_1_1_0_0_n_n.rhsIdx j c 0).val = (j 1).val := by
  unfold DotDims.rhsIdx
  rw [dif_neg (show ¬(0 : Fin S16x5.rank) ∈ dot_S5000x5_S16x5_S5000x16_1_1_0_0_n_n.rhsBatch by decide),
    dif_pos (show (0 : Fin S16x5.rank) ∈ dot_S5000x5_S16x5_S5000x16_1_1_0_0_n_n.rhsNonContracting by decide)]
  rfl

/-- The linear tile at (p, q): row p of the features against row q of the weights, plus the bias at q. -/
theorem linear_pay_at (x : Vec Ideal S5000x5 .f32) (w : Vec Ideal S16x5 .f32) (b : Vec Ideal S16 .f32)
    (p : Fin 5000) (q : Fin 16) :
    k0_pay1 (F := Ideal) x w b (ix2 p q) = (∑ k : Fin 5, x (ix2 p k) * w (ix2 q k)) + b (ix1 q) := by
  unfold k0_pay1
  rw [addf_apply]
  refine congrArg₂ (· + ·) ?_ ?_
  · exact Cert.LibProductAtT.matmul_zero_apply dot_S5000x5_S16x5_S5000x16_1_1_0_0_n_n none rfl rfl rfl rfl hl0 hr0 _ _ p q
  · rw [broadcastTo_1b_ab_apply, shapeCast_a_1a_apply]

/-- The scaling tile at (p, q): entry q of row p times the row's last entry. -/
theorem scale_pay_at (x : Vec Ideal S8192x17 .f32) (p : Fin 8192) (q : Fin 16) :
    k1_pay1 (F := Ideal) x (ix2 p q) = x (ix2 p (col17 q)) * x (ix2 p last17) := by
  unfold k1_pay1
  rw [mulf_apply, shapeCast_self]
  refine congrArg₂ (· * ·) ?_ ?_
  · exact slice2_axis1_apply 0 x _ p q (col17 q) (Nat.zero_add _).symm
  · rw [broadcastTo_a1_ab_apply]
    exact slice2_axis1_apply 16 x _ p (0 : Fin 1) last17 rfl

end Cert.KernelIdeal.Payloads

end
-- ==== Proof.LinearBlock.lean ====
/-
  The first call's result array: the linear layer of the node features.

  The call walks 20 grid points; point t reads rows 5000·t … 5000·t + 4999 of the feature matrix, the whole weight
  matrix and the whole bias, and writes back rows 5000·t … 5000·t + 4999 of the result. What it writes back at
  (p, q) of its tile is the sum over k < 5 of x(5000·t + p, k) · w(q, k), plus b(q): the block of one function of
  the three arrays. The 20 row blocks cover the result, so after the call the result array is that function:
  entry (n, q) is the sum over k of x(n, k) · w(q, k), plus b(q).
-/
import proofs.«166133_j17532056502701_2_alg».proof.Proof.Gen.KernelIdeal.Frame
import proofs.«166133_j17532056502701_2_alg».proof.Proof.Payloads
import Idealize.ShloMosaic.Lib.Pipeline.Value

set_option maxRecDepth 16384

noncomputable section

namespace Cert.KernelIdeal.Linear

open Cert.KernelIdeal Cert.KernelIdeal.Gen Cert.KernelIdeal.Payloads
open Idealize.ShloMosaic Idealize.ShloMosaic.TcCoe Idealize.ShloMosaic.ValueIdx Idealize.SL.Sem
open Idealize.ShloMosaic.Pipeline (Dat Cfg Window)

/-- The linear layer at node n and output feature q. -/
def linearAt (x : S100000x5.Idx → Elt Ideal .f32) (w : S16x5.Idx → Elt Ideal .f32) (b : S16.Idx → Elt Ideal .f32)
    (n : Fin 100000) (q : Fin 16) : Elt Ideal .f32 :=
  (∑ k : Fin 5, x (ix2 n k) * w (ix2 q k)) + b (ix1 q)

/-- The linear layer as an array: x · wᵀ + b. -/
def linear (x : S100000x5.Idx → Elt Ideal .f32) (w : S16x5.Idx → Elt Ideal .f32) (b : S16.Idx → Elt Ideal .f32) :
    S100000x16.Idx → Elt Ideal .f32 :=
  fun i => linearAt x w b (i 0) (i 1)

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the feature and result windows move one row block per point, the weight
    and bias windows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What point t writes back is block t of the linear layer of the arrays as the call finds them. -/
theorem flushed_eq (c : Dev nD) (t : Fin cfg0.N) :
    (dat0 V c).flushed 3 t
      = ((cfg0.win 3).blk t).view.read (Elt Ideal) (linear (V c main_arg0) (V c main_arg2) (V c main_arg3)) := by
  show (cfg0.win 3).cut (grid0.coords t) ((dat0 V c).after 3 t) = _
  rw [after0_3]
  unfold out0_3
  rw [View.canon_unit_zero hz2]
  simp only [View.ld_unit_zero (S := S5000x5) hz2, View.ld_unit_zero (S := S16x5) hz2, View.ld_unit_zero (S := S16) hz1]
  obtain ⟨e00, e01, e10, e11, e20, e30, e31⟩ := idx_facts t
  funext j
  obtain ⟨p, q, rfl⟩ : ∃ (p : Fin 5000) (q : Fin 16), j = ix2 p q := ⟨j 0, j 1, eq_ix2 j⟩
  refine (linear_pay_at (iblk0 V c 0 t) (iblk0 V c 1 t) (iblk0 V c 2 t) p q).trans ?_
  rw [View.read_apply]
  unfold linear linearAt
  refine congrArg₂ (· + ·) (Finset.sum_congr rfl fun k _ => congrArg₂ (· * ·) ?_ ?_) ?_
  · show V c main_arg0 (((cfg0.win 0).blk t).view.emb (ix2 p k))
      = V c main_arg0 (ix2 (((cfg0.win 3).blk t).view.emb (ix2 p q) 0) k)
    refine congrArg (V c main_arg0) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 5 + 1 * k.val = k.val; omega
  · show V c main_arg2 (((cfg0.win 1).blk t).view.emb (ix2 q k))
      = V c main_arg2 (ix2 (((cfg0.win 3).blk t).view.emb (ix2 p q) 1) k)
    refine congrArg (V c main_arg2) (funext fun a => Fin.ext ?_)
    match a with
    | ⟨0, _⟩ => show win0_1.index t (0 : Fin 2) * 16 + 1 * q.val = win0_3.index t (1 : Fin 2) * 16 + 1 * q.val; omega
    | ⟨1, _⟩ => show win0_1.index t (1 : Fin 2) * 5 + 1 * k.val = k.val; omega
  · show V c main_arg3 (((cfg0.win 2).blk t).view.emb (ix1 q))
      = V c main_arg3 (ix1 (((cfg0.win 3).blk t).view.emb (ix2 p q) 1))
    refine congrArg (V c main_arg3) (funext fun a => Fin.ext ?_)
    match a with
    | ⟨0, _⟩ => show win0_2.index t (0 : Fin 1) * 16 + 1 * q.val = win0_3.index t (1 : Fin 2) * 16 + 1 * q.val; omega

/-- An index of the result is in point t's block iff each coordinate is in the block's range on its axis. -/
theorem mem_blk (t : Fin cfg0.N) (i : S100000x16.Idx) :
    i ∈ ((cfg0.win 3).blk t).view.set ↔ ∀ a : Fin 2, win0_3.index t a * S5000x16.size a ≤ (i a).val
      ∧ (i a).val < win0_3.index t a * S5000x16.size a + S5000x16.size a := by
  show i ∈ ((View.whole main_v0).slice (win0_3.rect t)).set ↔ _
  rw [View.set_slice_whole, Rect.mem_set_unit]
  exact Iff.rfl

/-- Every entry of the result lies in the block of the point that owns its row: point (row / 5000). -/
theorem cover (i : S100000x16.Idx) :
    ∃ t : Fin cfg0.N, (cfg0.win 3).flush t = true ∧ i ∈ ((cfg0.win 3).blk t).view.set := by
  have hi0 : (i 0).val < 100000 := (i 0).isLt
  have hi1 : (i 1).val < 16 := (i 1).isLt
  have hN : grid0.N = 20 := N_0
  obtain ⟨t, ht⟩ : ∃ t : Fin cfg0.N, t.val = (i 0).val / 5000 :=
    ⟨⟨(i 0).val / 5000, lt_of_lt_of_eq (by omega) hN.symm⟩, rfl⟩
  obtain ⟨e00, e01, e10, e11, e20, e30, e31⟩ := idx_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 16 ≤ (i 1).val ∧ (i 1).val < win0_3.index t (1 : Fin 2) * 16 + 16
    omega

/-- THE RESULT ARRAY of the first call: the linear layer of the arrays as the call finds them. -/
theorem final (c : Dev nD) :
    (dat0 V c).arrAt 3 cfg0.N = linear (V c main_arg0) (V c main_arg2) (V c main_arg3) :=
  (dat0 V c).arrAt_eq_of_cover 3 _ (fun t _ => flushed_eq V c t) cover

end Cert.KernelIdeal.Linear

end
-- ==== Proof.LibConcatAt.lean ====
import Idealize.ShloMosaic.Lib.ValueIdx
import Idealize.ShloMosaic.Lib.Pipeline.Value

/-!
# A concatenation of matrices read at an entry

Two corollaries of the library's reading of a concatenation at an index (`concatenate_apply_piece`), in the two
forms a row-by-row or column-by-column assembly needs, with every index written by its coordinates:

* matrices [Wₖ, N] stacked on top of each other (axis 0) into [R, N]: entry `(j, r)` of the stack is entry
  `(p, r)` of piece `k` when the pieces before `k` have `pre` rows together and `j = pre + p`;
* matrices [N, Wₖ] set side by side (axis 1) into [N, K]: entry `(n, j)` is entry `(n, p)` of piece `k` when the
  pieces before `k` have `pre` columns together and `j = pre + p`.

The piece is named by an equation `xs[k]? = some ⟨shape, x₁⟩`, which for a literal list and a literal `k` is
decided by walking the list and tells Lean what `x₁` is; the count `pre` is a sum over a literal prefix of the list. Nothing here depends
on what the entries are.
-/

namespace Cert.LibConcatAt

open Idealize.ShloMosaic Idealize.ShloMosaic.ValueIdx

variable {α : Type}

/-- The extents of the pieces along axis `a` of the result, as the library's lemma sums them. -/
abbrev extents {t : Shape} (a : Fin t.rank) (ss : List Shape) : List Nat :=
  ss.map fun s => if h : s.rank = t.rank then s.size (a.cast h.symm) else 0

/-- Matrices stacked on top of each other, read at `(j, r)`: row `p` of piece `k`, where `j = pre + p` and `pre`
    is the number of rows of the pieces before `k`. -/
theorem stacked_at {R N W : ℕ} (xs : List ((s : Shape) × (s.Idx → α)))
    (h : Shape.Concatenates (xs.map (·.1)) ⟨2, ![R, N]⟩ (0 : Fin 2)) (j : Fin R) (r : Fin N)
    (k : ℕ) (x₁ : (⟨2, ![W, N]⟩ : Shape).Idx → α) (hxk : xs[k]? = some ⟨⟨2, ![W, N]⟩, x₁⟩)
    (pre : ℕ) (hpre : (extents (t := ⟨2, ![R, N]⟩) (0 : Fin 2) ((xs.take k).map (·.1))).sum = pre)
    (p : Fin W) (hj : pre + p.val = j.val) :
    concatenate ⟨2, ![R, N]⟩ (0 : Fin 2) xs h (ix2 j r) = x₁ (ix2 p r) := by
  obtain ⟨hk, hxk'⟩ := List.getElem?_eq_some_iff.mp hxk
  exact concatenate_apply_piece (t := ⟨2, ![R, N]⟩) (0 : Fin 2) xs h (ix2 j r) k hk ⟨2, ![W, N]⟩ x₁ hxk' rfl pre hpre (ix2 p r)
    (fun b hb => by
      match b with
      | ⟨0, _⟩ => exact absurd rfl hb
      | ⟨1, _⟩ => rfl) hj

/-- Matrices set side by side, read at `(n, j)`: column `p` of piece `k`, where `j = pre + p` and `pre` is the
    number of columns of the pieces before `k`. -/
theorem sideBySide_at {N K W : ℕ} (xs : List ((s : Shape) × (s.Idx → α)))
    (h : Shape.Concatenates (xs.map (·.1)) ⟨2, ![N, K]⟩ (1 : Fin 2)) (n : Fin N) (j : Fin K)
    (k : ℕ) (x₁ : (⟨2, ![N, W]⟩ : Shape).Idx → α) (hxk : xs[k]? = some ⟨⟨2, ![N, W]⟩, x₁⟩)
    (pre : ℕ) (hpre : (extents (t := ⟨2, ![N, K]⟩) (1 : Fin 2) ((xs.take k).map (·.1))).sum = pre)
    (p : Fin W) (hj : pre + p.val = j.val) :
    concatenate ⟨2, ![N, K]⟩ (1 : Fin 2) xs h (ix2 n j) = x₁ (ix2 n p) := by
  obtain ⟨hk, hxk'⟩ := List.getElem?_eq_some_iff.mp hxk
  exact concatenate_apply_piece (t := ⟨2, ![N, K]⟩) (1 : Fin 2) xs h (ix2 n j) k hk ⟨2, ![N, W]⟩ x₁ hxk' rfl pre hpre (ix2 n p)
    (fun b hb => by
      match b with
      | ⟨0, _⟩ => rfl
      | ⟨1, _⟩ => exact absurd rfl hb) hj

/-- Rows [1, N] stacked into [R, N]: row `j` of the stack is the `j`-th piece. The piece is found by walking the
    list to position `j`; that the `j` pieces before it are one row each is a sum over the prefix. -/
theorem stackedRows_at {R N : ℕ} (xs : List ((s : Shape) × (s.Idx → α)))
    (h : Shape.Concatenates (xs.map (·.1)) ⟨2, ![R, N]⟩ (0 : Fin 2)) (j : Fin R) (r : Fin N)
    (x₁ : (⟨2, ![1, N]⟩ : Shape).Idx → α) (hxk : xs[j.val]? = some ⟨⟨2, ![1, N]⟩, x₁⟩)
    (hpre : (extents (t := ⟨2, ![R, N]⟩) (0 : Fin 2) ((xs.take j.val).map (·.1))).sum = j.val) :
    concatenate ⟨2, ![R, N]⟩ (0 : Fin 2) xs h (ix2 j r) = x₁ (ix2 0 r) :=
  stacked_at xs h j r j.val x₁ hxk j.val hpre 0 rfl

/-- Columns [N, 1] set side by side into [N, K]: column `j` of the result is the `j`-th piece. -/
theorem columns_at {N K : ℕ} (xs : List ((s : Shape) × (s.Idx → α)))
    (h : Shape.Concatenates (xs.map (·.1)) ⟨2, ![N, K]⟩ (1 : Fin 2)) (n : Fin N) (j : Fin K)
    (x₁ : (⟨2, ![N, 1]⟩ : Shape).Idx → α) (hxk : xs[j.val]? = some ⟨⟨2, ![N, 1]⟩, x₁⟩)
    (hpre : (extents (t := ⟨2, ![N, K]⟩) (1 : Fin 2) ((xs.take j.val).map (·.1))).sum = j.val) :
    concatenate ⟨2, ![N, K]⟩ (1 : Fin 2) xs h (ix2 n j) = x₁ (ix2 n 0) :=
  sideBySide_at xs h n j j.val x₁ hxk j.val hpre 0 rfl

end Cert.LibConcatAt
-- ==== Proof.Messages.lean ====
/-
  The messages: the scaled rows of the padded table, cut back to the edges.

  The table handed to the second call has 17 columns: the first sixteen are a gathered feature row, the last is the
  edge's normalisation weight; rows past the last edge are padding. The second call replaces every row by its first
  sixteen entries times its last. Cut back to the edges, entry (e, d) is therefore feature(e, d) · weight(e) — the
  same product, factors swapped, as the weight column broadcast over sixteen columns times the gathered features.
  Multiplication of extended reals commutes, so the two arrays are equal; nothing here needs the entries finite.
-/
import proofs.«166133_j17532056502701_2_alg».proof.Proof.Gen.KernelIdeal
import proofs.«166133_j17532056502701_2_alg».proof.Proof.Gen.ReferenceIdeal
import proofs.«166133_j17532056502701_2_alg».proof.Proof.Payloads
import proofs.«166133_j17532056502701_2_alg».proof.Proof.LibConcatAt
import Idealize.ShloMosaic.Lib.KernelVsHost
import Idealize.ShloMosaic.Lib.Pipeline.Value
import Idealize.ShloMosaic.Lib.ValueIdx
import Idealize.ShloMosaic.Lib.ValueLayout

noncomputable section

namespace Cert.KernelIdeal.Messages

open Cert.KernelIdeal Cert.KernelIdeal.Gen Cert.KernelIdeal.Payloads Idealize.ShloMosaic Idealize.ShloMosaic.ValueIdx

/-- Row e of a 17-column table scaled by its last entry, at column q. -/
def scaledAt (P : S3301376x17.Idx → Elt Ideal .f32) (e : Fin 3301376) (q : Fin 16) : Elt Ideal .f32 :=
  P (ix2 e (col17 q)) * P (ix2 e last17)

/-- Every row of a 17-column table: its first sixteen entries times its last. -/
def scaled (P : S3301376x17.Idx → Elt Ideal .f32) : S3301376x16.Idx → Elt Ideal .f32 :=
  fun i => scaledAt P (i 0) (i 1)

/-- An edge's row among the padded rows. -/
abbrev padRow (e : Fin 3300000) : Fin 3301376 := ⟨e.val, by omega⟩

/-- The padded table at an edge's row is the table there. -/
theorem pad_at (X : S3300000x17.Idx → Elt Ideal .f32) (z : S_.Idx → Elt Ideal .f32) (e : Fin 3300000) (k : Fin 17) :
    pad S3301376x17 ![0, 0] ![1376, 0] ![0, 0] X z pads_S3300000x17_S3301376x17_013760_000 h_S_ (ix2 (padRow e) k)
      = X (ix2 e k) :=
  pad_apply_of_inside ![0, 0] ![1376, 0] ![0, 0] X z pads_S3300000x17_S3301376x17_013760_000 h_S_ (ix2 (padRow e) k) (ix2 e k)
    (fun a => by
      match a with
      | ⟨0, _⟩ => show e.val = 0 + e.val * (0 + 1); omega
      | ⟨1, _⟩ => show k.val = 0 + k.val * (0 + 1); omega)

/-- Features and weight set side by side: a column among the first sixteen is a feature. -/
theorem concat_feature_at (G : S3300000x16.Idx → Elt Ideal .f32) (NB : S3300000x1.Idx → Elt Ideal .f32)
    (e : Fin 3300000) (d : Fin 16) :
    concatenate S3300000x17 1 [⟨S3300000x16, G⟩, ⟨S3300000x1, NB⟩] concatenates_S3300000x16_S3300000x1_S3300000x17_d1
      (ix2 e (col17 d)) = G (ix2 e d) :=
  Cert.LibConcatAt.sideBySide_at (N := 3300000) (K := 17) (W := 16) [⟨S3300000x16, G⟩, ⟨S3300000x1, NB⟩]
    concatenates_S3300000x16_S3300000x1_S3300000x17_d1 e (col17 d) 0 G rfl 0 rfl d (Nat.zero_add _)

/-- Features and weight set side by side: the last column is the weight. -/
theorem concat_weight_at (G : S3300000x16.Idx → Elt Ideal .f32) (NB : S3300000x1.Idx → Elt Ideal .f32)
    (e : Fin 3300000) :
    concatenate S3300000x17 1 [⟨S3300000x16, G⟩, ⟨S3300000x1, NB⟩] concatenates_S3300000x16_S3300000x1_S3300000x17_d1
      (ix2 e last17) = NB (ix2 e (0 : Fin 1)) :=
  Cert.LibConcatAt.sideBySide_at (N := 3300000) (K := 17) (W := 1) [⟨S3300000x16, G⟩, ⟨S3300000x1, NB⟩]
    concatenates_S3300000x16_S3300000x1_S3300000x17_d1 e last17 1 NB rfl 16 rfl (0 : Fin 1) rfl

/-- The weight column broadcast over sixteen columns reads the weight in every column. -/
theorem weight_bcast_at (NB : S3300000x1.Idx → Elt Ideal .f32) (e : Fin 3300000) (d : Fin 16) :
    broadcastInDim Cert.ReferenceIdeal.S3300000x16 ![0, 1] Cert.ReferenceIdeal.Facts₀.bcast_S3300000x1_S3300000x16_0_1 NB (ix2 e d)
      = NB (ix2 e (0 : Fin 1)) :=
  broadcastInDim_apply _ Cert.ReferenceIdeal.Facts₀.bcast_S3300000x1_S3300000x16_0_1 NB (ix2 e d) (ix2 e (0 : Fin 1)) (fun a => by
    match a with
    | ⟨0, _⟩ => show e.val = if (3300000 : Nat) = 1 then 0 else e.val; rw [if_neg (by decide)]
    | ⟨1, _⟩ => show 0 = if (1 : Nat) = 1 then 0 else d.val; rw [if_pos rfl])

/-- THE MESSAGES. The scaled padded table cut back to the edges is the broadcast weight times the features. -/
theorem messages_eq (G : S3300000x16.Idx → Elt Ideal .f32) (NB : S3300000x1.Idx → Elt Ideal .f32)
    (z : S_.Idx → Elt Ideal .f32) :
    extractStridedSlice S3300000x16 ![0, 0]
        (scaled (pad S3301376x17 ![0, 0] ![1376, 0] ![0, 0]
          (concatenate S3300000x17 1 [⟨S3300000x16, G⟩, ⟨S3300000x1, NB⟩] concatenates_S3300000x16_S3300000x1_S3300000x17_d1)
          z pads_S3300000x17_S3301376x17_013760_000 h_S_))
        slices_S3301376x16_S3300000x16_0_0
      = mulf (F := Ideal) (φ := .f32)
          (broadcastInDim Cert.ReferenceIdeal.S3300000x16 ![0, 1] Cert.ReferenceIdeal.Facts₀.bcast_S3300000x1_S3300000x16_0_1 NB) G := by
  funext j
  obtain ⟨e, d, rfl⟩ : ∃ (e : Fin 3300000) (d : Fin 16), j = ix2 e d := ⟨j 0, j 1, eq_ix2 j⟩
  rw [mulf_apply, weight_bcast_at]
  rw [slice2_axis0_apply 0 _ slices_S3301376x16_S3300000x16_0_0 e d (padRow e) (Nat.zero_add _).symm]
  show scaledAt _ (padRow e) d = _
  unfold scaledAt
  rw [pad_at, pad_at, concat_feature_at, concat_weight_at]
  exact mul_comm (G (ix2 e d) : EReal) (NB (ix2 e (0 : Fin 1)))

end Cert.KernelIdeal.Messages

end
-- ==== Proof.ScaleBlock.lean ====
/-
  The second call's result array: every row of the padded table scaled by its last entry.

  The call walks 403 grid points; point t reads rows 8192·t … 8192·t + 8191 of the 17-column table and writes back
  the same rows of the 16-column result. What it writes back at (p, q) of its tile is table(8192·t + p, q) times
  table(8192·t + p, 16): the block of one function of the table. The 403 row blocks cover the result, so after the
  call entry (e, q) of the result is table(e, q) · table(e, 16).
-/
import proofs.«166133_j17532056502701_2_alg».proof.Proof.Gen.KernelIdeal.Frame
import proofs.«166133_j17532056502701_2_alg».proof.Proof.Payloads
import proofs.«166133_j17532056502701_2_alg».proof.Proof.Messages
import Idealize.ShloMosaic.Lib.Pipeline.Value

set_option maxRecDepth 16384

noncomputable section

namespace Cert.KernelIdeal.Scale

open Cert.KernelIdeal Cert.KernelIdeal.Gen Cert.KernelIdeal.Payloads Cert.KernelIdeal.Messages
open Idealize.ShloMosaic Idealize.ShloMosaic.TcCoe Idealize.ShloMosaic.ValueIdx Idealize.SL.Sem
open Idealize.ShloMosaic.Pipeline (Dat Cfg Window)

/-- The zero offset of a whole-tile access. -/
theorem hz2 : (![0, 0] : Fin 2 → Nat) = fun _ => 0 := funext fun a => by fin_cases a <;> rfl

/-- The printed index maps over the grid: both windows move one row block per point. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

variable (V : (c : Dev nD) → (b : Ref sig .tc) → Buf (Elt Ideal) ((c : Thread nD τ).loc b))

/-- What point t writes back is block t of the scaled table, the table as the call finds it. -/
theorem flushed_eq (c : Dev nD) (t : Fin cfg1.N) :
    (dat1 V c).flushed 1 t = ((cfg1.win 1).blk t).view.read (Elt Ideal) (scaled (V c main_v38)) := by
  show (cfg1.win 1).cut (grid1.coords t) ((dat1 V c).after 1 t) = _
  rw [after1_1]
  unfold out1_1
  rw [View.canon_unit_zero hz2]
  simp only [View.ld_unit_zero (S := S8192x17) hz2]
  obtain ⟨e00, e01, e10, e11⟩ := idx_facts t
  funext j
  obtain ⟨p, q, rfl⟩ : ∃ (p : Fin 8192) (q : Fin 16), j = ix2 p q := ⟨j 0, j 1, eq_ix2 j⟩
  refine (scale_pay_at (iblk1 V c 0 t) p q).trans ?_
  rw [View.read_apply]
  unfold scaled scaledAt
  refine congrArg₂ (· * ·) ?_ ?_
  · show V c main_v38 (((cfg1.win 0).blk t).view.emb (ix2 p (col17 q)))
      = V c main_v38 (ix2 (((cfg1.win 1).blk t).view.emb (ix2 p q) 0) (col17 (((cfg1.win 1).blk t).view.emb (ix2 p q) 1)))
    refine congrArg (V c main_v38) (funext fun a => Fin.ext ?_)
    match a with
    | ⟨0, _⟩ => show win1_0.index t (0 : Fin 2) * 8192 + 1 * p.val = win1_1.index t (0 : Fin 2) * 8192 + 1 * p.val; omega
    | ⟨1, _⟩ => show win1_0.index t (1 : Fin 2) * 17 + 1 * q.val = win1_1.index t (1 : Fin 2) * 16 + 1 * q.val; omega
  · show V c main_v38 (((cfg1.win 0).blk t).view.emb (ix2 p last17))
      = V c main_v38 (ix2 (((cfg1.win 1).blk t).view.emb (ix2 p q) 0) last17)
    refine congrArg (V c main_v38) (funext fun a => Fin.ext ?_)
    match a with
    | ⟨0, _⟩ => show win1_0.index t (0 : Fin 2) * 8192 + 1 * p.val = win1_1.index t (0 : Fin 2) * 8192 + 1 * p.val; omega
    | ⟨1, _⟩ => show win1_0.index t (1 : Fin 2) * 17 + 1 * 16 = 16; omega

/-- An index of the result is in point t's block iff each coordinate is in the block's range on its axis. -/
theorem mem_blk (t : Fin cfg1.N) (i : S3301376x16.Idx) :
    i ∈ ((cfg1.win 1).blk t).view.set ↔ ∀ a : Fin 2, win1_1.index t a * S8192x16.size a ≤ (i a).val
      ∧ (i a).val < win1_1.index t a * S8192x16.size a + S8192x16.size a := by
  show i ∈ ((View.whole main_v39).slice (win1_1.rect t)).set ↔ _
  rw [View.set_slice_whole, Rect.mem_set_unit]
  exact Iff.rfl

/-- Every entry of the result lies in the block of the point that owns its row: point (row / 8192). -/
theorem cover (i : S3301376x16.Idx) :
    ∃ t : Fin cfg1.N, (cfg1.win 1).flush t = true ∧ i ∈ ((cfg1.win 1).blk t).view.set := by
  have hi0 : (i 0).val < 3301376 := (i 0).isLt
  have hi1 : (i 1).val < 16 := (i 1).isLt
  have hN : grid1.N = 403 := N_1
  obtain ⟨t, ht⟩ : ∃ t : Fin cfg1.N, t.val = (i 0).val / 8192 :=
    ⟨⟨(i 0).val / 8192, lt_of_lt_of_eq (by omega) hN.symm⟩, rfl⟩
  obtain ⟨e00, e01, e10, e11⟩ := idx_facts t
  refine ⟨t, flush1_1 t, ?_⟩
  rw [mem_blk]
  intro a
  match a with
  | ⟨0, _⟩ =>
    show win1_1.index t (0 : Fin 2) * 8192 ≤ (i 0).val ∧ (i 0).val < win1_1.index t (0 : Fin 2) * 8192 + 8192
    omega
  | ⟨1, _⟩ =>
    show win1_1.index t (1 : Fin 2) * 16 ≤ (i 1).val ∧ (i 1).val < win1_1.index t (1 : Fin 2) * 16 + 16
    omega

/-- THE RESULT ARRAY of the second call: the scaled table, the table as the call finds it. -/
theorem final (c : Dev nD) : (dat1 V c).arrAt 1 cfg1.N = scaled (V c main_v38) :=
  (dat1 V c).arrAt_eq_of_cover 1 _ (fun t _ => flushed_eq V c t) cover

end Cert.KernelIdeal.Scale

end
-- ==== Proof.LibTypedRef.lean ====
/-
  A typed reference's two transports cancel.

  A module-local function's operations are stated over references that carry the type of the tensor value they hold;
  a value is moved to the buffer's own type when it is written and back when it is read. The two moves are transports
  along one equation and its inverse, so a value written and read back is itself — for every typed reference, whatever
  the signature. General: nothing here depends on a particular program; library import only.
-/
import Idealize.ShloMosaic.Lib.StableHlo

namespace Cert.TypedRef

open Idealize.ShloMosaic Idealize.ShloMosaic.StableHlo

/-- A value moved to a typed reference's buffer type and back is itself. -/
theorem ofBuf_toBuf {sig : RefSig} {T : BufTy} {Val : EltTy → Type} (x : TRef sig T) (v : T.Contents Val) :
    x.ofBuf (x.toBuf v) = v := by
  simp only [TRef.ofBuf, TRef.toBuf, cast_cast, cast_eq]

end Cert.TypedRef
-- ==== Proof.HostStages.lean ====
/-
  The kernel's host operations between and after the two tiled calls, read as values.

  From any contents of the buffers before them, the host operations between the calls compute: the target-node list
  (the edge index's second row with the self loops appended), the linear layer's rows gathered at each edge's source
  node, the edge weights as a column, those two set side by side, and the result padded below. The lists, the degree
  count, its inverse square root and the weights are spelt exactly as in the reference, so each is the reference's own
  function of the edge index. After the second call the host operations cut its array back to the edges, scatter-add
  it at the target nodes from zero, and take the maximum with zero.
-/
import proofs.«166133_j17532056502701_2_alg».proof.Proof.Gen.KernelIdeal.Launch
import proofs.«166133_j17532056502701_2_alg».proof.Proof.Gen.ReferenceIdeal.Read
import Idealize.ShloMosaic.Lib.StableHlo.Run
import proofs.«166133_j17532056502701_2_alg».proof.Proof.LibTypedRef

set_option maxRecDepth 16384

noncomputable section

namespace Cert.KernelIdeal.HostStages

open Cert.KernelIdeal Cert.KernelIdeal.Gen
open Idealize.ShloMosaic Idealize.ShloMosaic.TcCoe Idealize.SL.Sem
open Idealize.ShloMosaic.StableHlo

/-- The target-node list is the reference's function of the edge index. -/
theorem targets (Wv : Valuation τ sig (Elt Ideal)) :
    StableHlo.after (hostOps1 (F := Ideal)) Wv (Proc.devRef .tc main_v7)
      = Cert.ReferenceIdeal.Read.val_main_v6 (F := Ideal) (Wv (Proc.devRef .tc main_arg1)) := by
  after_results_simp
  rfl

/-- The gathered rows: the first call's array at each edge's source node, the node list the reference's. -/
theorem gathered (Wv : Valuation τ sig (Elt Ideal)) :
    StableHlo.after (hostOps1 (F := Ideal)) Wv (Proc.devRef .tc main_v20)
      = Host.gather gather_S100000x16_S3300000x1_S3300000x16_1_0_n_n_0_1_116 (Wv (Proc.devRef .tc main_v0))
          (Cert.ReferenceIdeal.Read.val_main_v39 (F := Ideal) (Wv (Proc.devRef .tc main_arg1))) := by
  after_results_simp
  rfl

/-- The weight column is the reference's function of the edge index. -/
theorem weights (Wv : Valuation τ sig (Elt Ideal)) :
    StableHlo.after (hostOps1 (F := Ideal)) Wv (Proc.devRef .tc main_v36)
      = Cert.ReferenceIdeal.Read.val_main_v33 (F := Ideal) (Wv (Proc.devRef .tc main_arg1)) := by
  after_results_simp
  rfl

/-- The table before padding: the gathered rows and the weight column side by side. -/
theorem table (Wv : Valuation τ sig (Elt Ideal)) :
    StableHlo.after (hostOps1 (F := Ideal)) Wv (Proc.devRef .tc main_v37)
      = concatenate S3300000x17 1
          [⟨S3300000x16, StableHlo.after (hostOps1 (F := Ideal)) Wv (Proc.devRef .tc main_v20)⟩,
           ⟨S3300000x1, StableHlo.after (hostOps1 (F := Ideal)) Wv (Proc.devRef .tc main_v36)⟩]
          concatenates_S3300000x16_S3300000x1_S3300000x17_d1 := by
  simp only [after_cons, after_nil]
  rfl

/-- The padding step: the table with rows of some scalar appended below; the target-node list is untouched. -/
theorem padded (Wv : Valuation τ sig (Elt Ideal)) :
    StableHlo.after (hostOps1_1 (F := Ideal)) Wv (Proc.devRef .tc main_v38)
      = pad S3301376x17 ![0, 0] ![1376, 0] ![0, 0] (Wv (Proc.devRef .tc main_v37))
          (sitofp (F := Ideal) .f32 (Wv (Proc.devRef .tc main_c_7))) pads_S3300000x17_S3301376x17_013760_000 h_S_ := by
  after_results_simp
  rfl

/-- The padding step leaves the target-node list as it was. -/
theorem padded_targets (Wv : Valuation τ sig (Elt Ideal)) :
    StableHlo.after (hostOps1_1 (F := Ideal)) Wv (Proc.devRef .tc main_v7) = Wv (Proc.devRef .tc main_v7) := by
  after_results_simp

/-- A value moved to the buffer type of a reference whose type is the value's own is the value. -/
theorem toBuf_self (r : Ref sig .tc) (h2 : r.space ≠ .host) (h3 : r.isScoped = false) (v : r.ty.Contents (Elt Ideal)) :
    (TRef.of (T := r.ty) r rfl h2 h3).toBuf v = v := rfl

/-- A value read back from the buffer type of a reference whose type is the value's own is the value. -/
theorem ofBuf_self (r : Ref sig .tc) (h2 : r.space ≠ .host) (h3 : r.isScoped = false) (v : r.ty.Contents (Elt Ideal)) :
    (TRef.of (T := r.ty) r rfl h2 h3).ofBuf v = v := rfl

/-- The operations after the second call: its array cut back to the edges, scatter-added at the target nodes from
    zero, then the maximum with zero. -/
theorem result (Wv : Valuation τ sig (Elt Ideal)) :
    StableHlo.after (hostOps2_1 (F := Ideal)) (StableHlo.after (hostOps2 (F := Ideal)) Wv) (Proc.devRef .tc main_v44)
      = maximumf (F := Ideal) (φ := .f32)
          (Host.scatterAdd scatter_S100000x16_S3300000x1_S3300000x16_1_0_0_1
            (broadcastInDim S100000x16 ![] bcast_S_S100000x16 (constant (F := Ideal) S_ .f32 0x00000000#32))
            (broadcastInDim S3300000x1 ![0] bcast_S3300000_S3300000x1_0 (Wv (Proc.devRef .tc main_v7)))
            (extractStridedSlice S3300000x16 ![0, 0] (Wv (Proc.devRef .tc main_v39)) slices_S3301376x16_S3300000x16_0_0))
          (broadcastInDim S100000x16 ![] bcast_S_S100000x16 (constant (F := Ideal) S_ .f32 0x00000000#32)) := by
  after_results_simp
  simp only [Cert.TypedRef.ofBuf_toBuf]
  refine (toBuf_self main_v44 (by decide) rfl _).trans ?_
  refine congrArg₂ (maximumf (F := Ideal) (φ := .f32) (s := S100000x16)) ?_ rfl
  exact ofBuf_self main_v43 (by decide) rfl _

end Cert.KernelIdeal.HostStages

end
-- ==== Proof.Bridge.lean ====
/-
  The idealized kernel's result array is the reference's result function of the arguments.

  Read back through the program's segments, the kernel's result is: the clamp at zero of the sum, scattered at
  each edge's target node, of the messages — the second call's array cut back to the edges. The second call's
  array is the padded 17-column table with every row scaled by its last entry; the table is the first call's
  array gathered at each edge's source node, beside the edge's weight; the first call's array is the linear
  layer of the node features, the same array the reference computes as one matrix product with the weight matrix
  transposed plus the broadcast bias. The edge lists, the degree count, its inverse square root and the weights
  are the same host operations of the edge index in both programs. So the messages are the reference's messages
  (weight times gathered feature, the factors in the other order), and the scatter and the clamp are the same.
-/
import proofs.«166133_j17532056502701_2_alg».proof.Proof.Gen.KernelIdeal.Frame
import proofs.«166133_j17532056502701_2_alg».proof.Proof.Gen.ReferenceIdeal.Read
import proofs.«166133_j17532056502701_2_alg».proof.Proof.LinearBlock
import proofs.«166133_j17532056502701_2_alg».proof.Proof.ScaleBlock
import proofs.«166133_j17532056502701_2_alg».proof.Proof.Messages
import proofs.«166133_j17532056502701_2_alg».proof.Proof.HostStages
import Idealize.ShloMosaic.Lib.StableHlo.Run

set_option maxRecDepth 16384

noncomputable section

namespace Cert.KernelIdeal.Bridge

open Cert.KernelIdeal Cert.KernelIdeal.Gen Cert.KernelIdeal.Linear Cert.KernelIdeal.Messages
open Idealize.ShloMosaic Idealize.ShloMosaic.TcCoe Idealize.ShloMosaic.ValueIdx Idealize.SL.Sem
open Idealize.ShloMosaic.StableHlo

/-- The reference's linear layer — one product with the transposed weights, plus the bias broadcast over the
    nodes — is the linear layer entry by entry: Σ_k x(n, k) · w(q, k) + b(q). -/
theorem ref_linear (x0 : S100000x5.Idx → Elt Ideal .f32) (x2 : S16x5.Idx → Elt Ideal .f32) (x3 : S16.Idx → Elt Ideal .f32) :
    Cert.ReferenceIdeal.Read.val_main_v11 (F := Ideal) x0 x2 x3 = linear x0 x2 x3 := by
  funext i
  obtain ⟨n, q, rfl⟩ : ∃ (n : Fin 100000) (q : Fin 16), i = ix2 n q := ⟨i 0, i 1, eq_ix2 i⟩
  have el : ∀ k : Fin 5, Cert.ReferenceIdeal.Read.lidx_main_v8 (ix2 n q) k = ix2 n k := fun k =>
    funext fun a => Fin.ext (by match a with | ⟨0, _⟩ => rfl | ⟨1, _⟩ => rfl)
  have er : ∀ k : Fin 5,
      Cert.ReferenceIdeal.Read.idx_main_v7 (Cert.ReferenceIdeal.Read.ridx_main_v8 (ix2 n q) k) = ix2 q k := fun k =>
    funext fun a => Fin.ext (by match a with | ⟨0, _⟩ => rfl | ⟨1, _⟩ => rfl)
  have eb : Cert.ReferenceIdeal.Read.idx_main_v9 (Cert.ReferenceIdeal.Read.idx_main_v10 (ix2 n q)) = ix1 q :=
    funext fun a => Fin.ext (by match a with | ⟨0, _⟩ => rfl)
  rw [Cert.ReferenceIdeal.Read.val_main_v11_apply, Cert.ReferenceIdeal.Read.val_main_v8_apply,
    Cert.ReferenceIdeal.Read.val_main_v10_apply, Cert.ReferenceIdeal.Read.val_main_v9_apply]
  simp only [Cert.ReferenceIdeal.Read.val_main_v7_apply, el, er, eb]
  rfl

variable (m : (ℓ : Loc nD τ sig) → Buf (Elt Ideal) ℓ) (ρ : Dev nD → PrngReg)

/-- The first call leaves the edge index as launched. -/
theorem edges_kept (c : Dev nD) :
    W1 m ρ c (Proc.devRef .tc main_arg1) = m ((c : Thread nD τ).loc main_arg1) :=
  W1_of_ne m ρ c main_arg1 (by decide)

/-- After the first call its result buffer holds the linear layer of the launched arguments. -/
theorem linear_buf (c : Dev nD) :
    W1 m ρ c (Proc.devRef .tc main_v0)
      = linear (m ((c : Thread nD τ).loc main_arg0)) (m ((c : Thread nD τ).loc main_arg2)) (m ((c : Thread nD τ).loc main_arg3)) :=
  (W1_arr m ρ c 3).trans (Linear.final (V0 m ρ) c)

/-- The target-node list the last scatter reads is the reference's, a host function of the edge index. -/
theorem targets_eq (c : Dev nD) :
    W4 m ρ c (Proc.devRef .tc main_v7)
      = Cert.ReferenceIdeal.Read.val_main_v6 (F := Ideal) (m ((c : Thread nD τ).loc main_arg1)) := by
  rw [W4_of_ne m ρ c main_v7 (by decide)]
  show StableHlo.after hostOps1_1 (StableHlo.after hostOps1 (W1 m ρ c)) (Proc.devRef .tc main_v7) = _
  rw [HostStages.padded_targets, HostStages.targets, edges_kept]

/-- The table handed to the second call: the first call's array gathered at the source nodes beside the weight
    column (both index lists and the weights the reference's own host functions of the edge index), padded below
    with some scalar. -/
theorem table_eq (c : Dev nD) : ∃ z : S_.Idx → Elt Ideal .f32,
    V3 m ρ c main_v38 = pad S3301376x17 ![0, 0] ![1376, 0] ![0, 0]
      (concatenate S3300000x17 1
        [⟨S3300000x16, Host.gather gather_S100000x16_S3300000x1_S3300000x16_1_0_n_n_0_1_116
            (W1 m ρ c (Proc.devRef .tc main_v0))
            (Cert.ReferenceIdeal.Read.val_main_v39 (F := Ideal) (m ((c : Thread nD τ).loc main_arg1)))⟩,
         ⟨S3300000x1, Cert.ReferenceIdeal.Read.val_main_v33 (F := Ideal) (m ((c : Thread nD τ).loc main_arg1))⟩]
        concatenates_S3300000x16_S3300000x1_S3300000x17_d1)
      z pads_S3300000x17_S3301376x17_013760_000 h_S_ := by
  refine ⟨sitofp (F := Ideal) .f32 (W2 m ρ c (Proc.devRef .tc main_c_7)), ?_⟩
  show StableHlo.after hostOps1_1 (StableHlo.after hostOps1 (W1 m ρ c)) (Proc.devRef .tc main_v38) = _
  rw [HostStages.padded, HostStages.table, HostStages.gathered, HostStages.weights, edges_kept]

/-- The result buffer after the last host operations: the clamp at zero of the scatter-sum, at the target
    nodes, of the second call's array cut back to the edges. -/
theorem result_eq (c : Dev nD) :
    W6 m ρ c (Proc.devRef .tc main_v44)
      = maximumf (F := Ideal) (φ := .f32)
          (Host.scatterAdd scatter_S100000x16_S3300000x1_S3300000x16_1_0_0_1
            (broadcastInDim S100000x16 ![] bcast_S_S100000x16 (constant (F := Ideal) S_ .f32 0x00000000#32))
            (broadcastInDim S3300000x1 ![0] bcast_S3300000_S3300000x1_0 (W4 m ρ c (Proc.devRef .tc main_v7)))
            (extractStridedSlice S3300000x16 ![0, 0] (W4 m ρ c (Proc.devRef .tc main_v39)) slices_S3301376x16_S3300000x16_0_0))
          (broadcastInDim S100000x16 ![] bcast_S_S100000x16 (constant (F := Ideal) S_ .f32 0x00000000#32)) :=
  HostStages.result (W4 m ρ c)

/-- The second call's array cut back to the edges is the reference's message array. -/
theorem messages_buf (c : Dev nD) :
    extractStridedSlice S3300000x16 ![0, 0] (W4 m ρ c (Proc.devRef .tc main_v39)) slices_S3301376x16_S3300000x16_0_0
      = Cert.ReferenceIdeal.Read.val_main_v42 (F := Ideal) (m ((c : Thread nD τ).loc main_arg0))
          (m ((c : Thread nD τ).loc main_arg1)) (m ((c : Thread nD τ).loc main_arg2)) (m ((c : Thread nD τ).loc main_arg3)) := by
  obtain ⟨z, hz⟩ := table_eq m ρ c
  have hbuf : W4 m ρ c (Proc.devRef .tc main_v39) = scaled (V3 m ρ c main_v38) :=
    (W4_arr m ρ c 1).trans (Scale.final (V3 m ρ) c)
  rw [hbuf, hz, linear_buf, messages_eq, ← ref_linear]
  rfl

/-- THE KERNEL'S RESULT is the reference's result function of the launched arguments. -/
theorem kernel_value (c : Dev nD) :
    W6 m ρ c (Proc.devRef .tc main_v44)
      = Cert.ReferenceIdeal.Read.val_main_v46 (F := Ideal) (m ((c : Thread nD τ).loc main_arg0))
          (m ((c : Thread nD τ).loc main_arg1)) (m ((c : Thread nD τ).loc main_arg2)) (m ((c : Thread nD τ).loc main_arg3)) := by
  rw [result_eq, targets_eq, messages_buf]
  rfl

end Cert.KernelIdeal.Bridge

end
-- ==== Proof.lean ====
/-
  The certificate of a graph convolution — a linear layer of the node features, degree-normalised messages along
  the edges (self loops added), summed at each edge's target node and clamped at zero — computed by two tiled
  calls among host operations, against the same convolution written with array operations only.

  On extended reals the two programs compute one function of the arguments. The first tiled call is the linear
  layer: each of its 20 row blocks is a product of 5000 feature rows with the transposed weight matrix plus the
  bias, and the blocks cover the result; the reference computes the same entries as one product. The edge lists
  with their self loops, the in-degree count, its power −1/2 and the per-edge weight (the product of the two end
  nodes' powers) are the same host operations of the edge index in both programs, and both gather the linear
  layer at each edge's source node. The kernel sets the gathered features beside the weight as a 17th column, pads
  the rows to a multiple of 8192, lets the second tiled call multiply every row's first sixteen entries by its
  last, and cuts the padding off; the reference broadcasts the weight over sixteen columns and multiplies. Entry
  by entry these are feature · weight and weight · feature, equal since multiplication of extended reals commutes
  (no finiteness is needed). Both programs then scatter-add the messages at the target nodes from zero and take the
  maximum with zero.

  The three frame claims: the two kernels' are the generated frames; the reference's is its generated run with the
  result dropped. The idealisation rewrote nothing, so the preservation claim is trivial.
-/
import proofs.«166133_j17532056502701_2_alg».proof.Defs
import proofs.«166133_j17532056502701_2_alg».proof.Proof.Gen.Kernel
import proofs.«166133_j17532056502701_2_alg».proof.Proof.Gen.Kernel.Skeleton
import proofs.«166133_j17532056502701_2_alg».proof.Proof.Gen.Kernel.Launch
import proofs.«166133_j17532056502701_2_alg».proof.Proof.Gen.Kernel.Points
import proofs.«166133_j17532056502701_2_alg».proof.Proof.Gen.Kernel.Frame
import proofs.«166133_j17532056502701_2_alg».proof.Proof.Gen.KernelIdeal
import proofs.«166133_j17532056502701_2_alg».proof.Proof.Gen.KernelIdeal.Skeleton
import proofs.«166133_j17532056502701_2_alg».proof.Proof.Gen.KernelIdeal.Launch
import proofs.«166133_j17532056502701_2_alg».proof.Proof.Gen.KernelIdeal.Points
import proofs.«166133_j17532056502701_2_alg».proof.Proof.Gen.KernelIdeal.Frame
import proofs.«166133_j17532056502701_2_alg».proof.Proof.Gen.ReferenceIdeal
import proofs.«166133_j17532056502701_2_alg».proof.Proof.Gen.Pre_finite_inputs
import proofs.«166133_j17532056502701_2_alg».proof.Proof.Gen.ReferenceIdeal.Run
import proofs.«166133_j17532056502701_2_alg».proof.Proof.Gen.ReferenceIdeal.Read
import proofs.«166133_j17532056502701_2_alg».proof.Proof.KernelRun
import proofs.«166133_j17532056502701_2_alg».proof.Proof.Bridge
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories that agree on the arguments both programs end with the reference's result function of those
    arguments in their result arrays, and the arguments unchanged. -/
theorem algebraic : Cert.algebraic_KernelIdeal_ReferenceIdeal := by
  intro m ρ m' ρ' _ hagree
  refine ⟨fun c => Cert.ReferenceIdeal.Read.val_main_v46 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Bridge.kernel_value m ρ c), (h c).2⟩)
      (Cert.KernelIdeal.RunValue.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v46_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
